-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S10x1024 : Shape := ⟨2, ![10, 1024]⟩
abbrev S10 : Shape := ⟨1, ![10]⟩
abbrev S4096x10 : Shape := ⟨2, ![4096, 10]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S10x1024 : S_.BroadcastsInDim S10x1024 (![] : Fin 0 → Fin S10x1024.rank)
  reducesTo_S10x1024_S_d0_1 : S10x1024.ReducesTo [0, 1] S_
  bcast_S_S10 : S_.BroadcastsInDim S10 (![] : Fin 0 → Fin S10.rank)
  reducesTo_S10_S_d0 : S10.ReducesTo [0] S_
  bcast_S_S4096x10 : S_.BroadcastsInDim S4096x10 (![] : Fin 0 → Fin S4096x10.rank)
  reducesTo_S4096x10_S_d0_1 : S4096x10.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4096x10 .f32) (main_arg5 : FVec F S4096 .f32) (main_arg6 : FVec F S1024x4096 .f32) (main_arg7 : FVec F S1024 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S4096x10 .f32 := Host.absf main_arg4
  let main_cst_6 : FVec F S_ .f32 := constant S_ .f32 0x7F800000#32
  let main_v20 : FVec F S4096x10 .f32 := broadcastInDim S4096x10 ![] bcast_S_S4096x10 main_cst_6
  let main_v21 : IVec S4096x10 1 := cmpf .olt main_v19 main_v20
  let main_c_7 : IVec S_ 1 := constantI S_ 1 1#1
  let main_v22 : IVec S_ 1 := (fun x v => Host.reduce IntOp.andi x v reducesTo_S4096x10_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_v33

def fn {F : FTy → Type} [FloatOps F] (main_arg0 : FVec F S8x2048x1024 .f32) (main_arg1 : FVec F S10x1024 .f32) (main_arg2 : FVec F S10 .f32) (main_arg3 : FVec F S10 .f32) (main_arg4 : FVec F S4096x10 .f32) (main_arg5 : FVec F S4096 .f32) (main_arg6 : FVec F S1024x4096 .f32) (main_arg7 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S10x1024 .f32 := Host.absf main_arg1
  let main_cst_0 : FVec F S_ .f32 := constant S_ .f32 0x7F800000#32
  let main_v5 : FVec F S10x1024 .f32 := broadcastInDim S10x1024 ![] bcast_S_S10x1024 main_cst_0
  let main_v6 : IVec S10x1024 1 := cmpf .olt main_v4 main_v5
  let main_c_1 : IVec S_ 1 := constantI S_ 1 1#1
  let main_v7 : IVec S_ 1 := (fun x v => Host.reduce IntOp.andi x v reducesTo_S10x1024_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_arg7 main_v13 main_v16
-- ==== Kernel.lean ====
abbrev S8x2048x1024 : Shape := ⟨3, ![8, 2048, 1024]⟩
abbrev S10x1024 : Shape := ⟨2, ![10, 1024]⟩
abbrev S10 : Shape := ⟨1, ![10]⟩
abbrev S4096x10 : Shape := ⟨2, ![4096, 10]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S1024x10 : Shape := ⟨2, ![1024, 10]⟩
abbrev S1x10 : Shape := ⟨2, ![1, 10]⟩
abbrev S10x4096 : Shape := ⟨2, ![10, 4096]⟩
abbrev S1x4096 : Shape := ⟨2, ![1, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 23
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S10x1024, .f32⟩
  | .hbm, ⟨2, _⟩ => ⟨S10, .f32⟩
  | .hbm, ⟨3, _⟩ => ⟨S10, .f32⟩
  | .hbm, ⟨4, _⟩ => ⟨S4096x10, .f32⟩
  | .hbm, ⟨5, _⟩ => ⟨S4096, .f32⟩
  | .hbm, ⟨6, _⟩ => ⟨S1024x4096, .f32⟩
  | .hbm, ⟨7, _⟩ => ⟨S1024, .f32⟩
  | .hbm, ⟨8, _⟩ => ⟨S16384x1024, .f32⟩
  | .hbm, ⟨9, _⟩ => ⟨S1024x10, .f32⟩
  | .hbm, ⟨10, _⟩ => ⟨S1x10, .f32⟩
  | .hbm, ⟨11, _⟩ => ⟨S10, .f32⟩
  | .hbm, ⟨12, _⟩ => ⟨S1x10, .f32⟩
  | .hbm, ⟨13, _⟩ => ⟨S4096x10, .f32⟩
  | .hbm, ⟨14, _⟩ => ⟨S4096x10, .f32⟩
  | .hbm, ⟨15, _⟩ => ⟨S10x4096, .f32⟩
  | .hbm, ⟨16, _⟩ => ⟨S10x4096, .bf16⟩
  | .hbm, ⟨17, _⟩ => ⟨S1x4096, .f32⟩
  | .hbm, ⟨18, _⟩ => ⟨S4096x1024, .f32⟩
  | .hbm, ⟨19, _⟩ => ⟨S4096x1024, .bf16⟩
  | .hbm, ⟨20, _⟩ => ⟨S1x1024, .f32⟩
  | .hbm, ⟨21, _⟩ => ⟨S16384x1024, .f32⟩
  | .hbm, ⟨22, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x10, .f32⟩
  | .local _ .vmem, ⟨3, _⟩ => ⟨S1x10, .f32⟩
  | .local _ .vmem, ⟨4, _⟩ => ⟨S10x4096, .bf16⟩
  | .local _ .vmem, ⟨5, _⟩ => ⟨S1x4096, .f32⟩
  | .local _ .vmem, ⟨6, _⟩ => ⟨S4096x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x2048x1024_S16384x1024 : S8x2048x1024.ShapeCasts S16384x1024
  transposes_S10x1024_S1024x10_1_0 : S10x1024.Transposes [1, 0] S1024x10
  shapeCasts_S10_S1x10 : S10.ShapeCasts S1x10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  transposes_S4096x10_S10x4096_1_0 : S4096x10.Transposes [1, 0] S10x4096
  bitsLt_bf16_f32 : FTy.bits .bf16 < FTy.bits .f32
  shapeCasts_S4096_S1x4096 : S4096.ShapeCasts S1x4096
  transposes_S1024x4096_S4096x1024_1_0 : S1024x4096.Transposes [1, 0] S4096x1024
  shapeCasts_S1024_S1x1024 : S1024.ShapeCasts S1x1024
  shapeCasts_S16384x1024_S8x2048x1024 : S16384x1024.ShapeCasts S8x2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S10x4096_S10x4096_0_0 : ∀ a, (![0, 0] : Fin 2 → Nat) a + S10x4096.size a ≤ S10x4096.size a
  h_S10x4096 : 0 < S10x4096.numel
  shapeCasts_S10x4096_S10x4096 : S10x4096.ShapeCasts S10x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x10_S1024x10_1_0_0_1_n_n_wf : DotDims.WF S1024x1024 S1024x10 S1024x10 [1] [0] [0] [1] [] []
  dot_S1024x10_S10x4096_S1024x4096_1_0_0_1_n_n_wf : DotDims.WF S1024x10 S10x4096 S1024x4096 [1] [0] [0] [1] [] []
  dot_S1024x4096_S4096x1024_S1024x1024_1_0_0_1_n_n_wf : DotDims.WF S1024x4096 S4096x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x10.size a ≤ S1024x10.size a
  hwx0_1 : ∀ i : grid0.Coords, EltTy.bits .f32 = 32 ∨ (Rect.block (s := S1024x10) S1024x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x4096.size a ≤ S10x4096.size a
  hwx0_3 : ∀ i : grid0.Coords, EltTy.bits .bf16 = 32 ∨ (Rect.block (s := S10x4096) S10x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S16384x1024.size a
  hwx0_7 : ∀ i : grid0.Coords, EltTy.bits .f32 = 32 ∨ (Rect.block (s := S16384x1024) S1024x1024.size (cc0_transform_7 i) (hinb0_7 i)).WholeWords (EltTy.packing .f32)

variable [Facts₀]

def dot_S1024x1024_S1024x10_S1024x10_1_0_0_1_n_n : DotDims S1024x1024 S1024x10 S1024x10 where
  lhsContracting := [1]
  rhsContracting := [0]
  lhsNonContracting := [0]
  rhsNonContracting := [1]
  lhsBatch := []
  rhsBatch := []
  wf := dot_S1024x1024_S1024x10_S1024x10_1_0_0_1_n_n_wf
def dot_S1024x10_S10x4096_S1024x4096_1_0_0_1_n_n : DotDims S1024x10 S10x4096 S1024x4096 where
  lhsContracting := [1]
  rhsContracting := [0]
  lhsNonContracting := [0]
  rhsNonContracting := [1]
  lhsBatch := []
  rhsBatch := []
  wf := dot_S1024x10_S10x4096_S1024x4096_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

abbrev win0_0 : Pipeline.Window sig grid0 :=
  Pipeline.Window.ofSpec (Memref.whole main_call0_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S10x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v11) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v12) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v13) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S10x1024 : Shape := ⟨2, ![10, 1024]⟩
abbrev S10 : Shape := ⟨1, ![10]⟩
abbrev S4096x10 : Shape := ⟨2, ![4096, 10]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S1024x10 : Shape := ⟨2, ![1024, 10]⟩
abbrev S16384x10 : Shape := ⟨2, ![16384, 10]⟩
abbrev S1x10 : Shape := ⟨2, ![1, 10]⟩
abbrev S10x4096 : Shape := ⟨2, ![10, 4096]⟩
abbrev S16384x4096 : Shape := ⟨2, ![16384, 4096]⟩
abbrev S1x4096 : Shape := ⟨2, ![1, 4096]⟩
abbrev S_ : Shape := ⟨0, ![]⟩
abbrev S4096x1024 : Shape := ⟨2, ![4096, 1024]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S10x1024, .f32⟩
  | .hbm, ⟨2, _⟩ => ⟨S10, .f32⟩
  | .hbm, ⟨3, _⟩ => ⟨S10, .f32⟩
  | .hbm, ⟨4, _⟩ => ⟨S4096x10, .f32⟩
  | .hbm, ⟨5, _⟩ => ⟨S4096, .f32⟩
  | .hbm, ⟨6, _⟩ => ⟨S1024x4096, .f32⟩
  | .hbm, ⟨7, _⟩ => ⟨S1024, .f32⟩
  | .hbm, ⟨8, _⟩ => ⟨S16384x1024, .f32⟩
  | .hbm, ⟨9, _⟩ => ⟨S1024x10, .f32⟩
  | .hbm, ⟨10, _⟩ => ⟨S16384x10, .f32⟩
  | .hbm, ⟨11, _⟩ => ⟨S1x10, .f32⟩
  | .hbm, ⟨12, _⟩ => ⟨S16384x10, .f32⟩
  | .hbm, ⟨13, _⟩ => ⟨S16384x10, .f32⟩
  | .hbm, ⟨14, _⟩ => ⟨S16384x10, .f32⟩
  | .hbm, ⟨15, _⟩ => ⟨S10, .f32⟩
  | .hbm, ⟨16, _⟩ => ⟨S1x10, .f32⟩
  | .hbm, ⟨17, _⟩ => ⟨S16384x10, .f32⟩
  | .hbm, ⟨18, _⟩ => ⟨S16384x10, .f32⟩
  | .hbm, ⟨19, _⟩ => ⟨S10x4096, .f32⟩
  | .hbm, ⟨20, _⟩ => ⟨S16384x4096, .f32⟩
  | .hbm, ⟨21, _⟩ => ⟨S1x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S4096x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  shapeCasts_S8x2048x1024_S16384x1024 : S8x2048x1024.ShapeCasts S16384x1024
  transposes_S10x1024_S1024x10_1_0 : S10x1024.Transposes [1, 0] S1024x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  transposes_S4096x10_S10x4096_1_0 : S4096x10.Transposes [1, 0] S10x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S8x2048x1024 : S16384x1024.ShapeCasts S8x2048x1024
  dot_S16384x1024_S1024x10_S16384x10_1_0_0_1_n_n_wf : DotDims.WF S16384x1024 S1024x10 S16384x10 [1] [0] [0] [1] [] []
  dot_S16384x10_S10x4096_S16384x4096_1_0_0_1_n_n_wf : DotDims.WF S16384x10 S10x4096 S16384x4096 [1] [0] [0] [1] [] []
  dot_S16384x4096_S4096x1024_S16384x1024_1_0_0_1_n_n_wf : DotDims.WF S16384x4096 S4096x1024 S16384x1024 [1] [0] [0] [1] [] []

variable [Facts₀]

def dot_S16384x1024_S1024x10_S16384x10_1_0_0_1_n_n : DotDims S16384x1024 S1024x10 S16384x10 where
  lhsContracting := [1]
  rhsContracting := [0]
  lhsNonContracting := [0]
  rhsNonContracting := [1]
  lhsBatch := []
  rhsBatch := []
  wf := dot_S16384x1024_S1024x10_S16384x10_1_0_0_1_n_n_wf
def dot_S16384x10_S10x4096_S16384x4096_1_0_0_1_n_n : DotDims S16384x10 S10x4096 S16384x4096 where
  lhsContracting := [1]
  rhsContracting := [0]
  lhsNonContracting := [0]
  rhsNonContracting := [1]
  lhsBatch := []
  rhsBatch := []
  wf := dot_S16384x10_S10x4096_S16384x4096_1_0_0_1_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.Spec.lean ====
/-
  The function both programs compute, stated once over the extended reals.

  A row `a` of the flattened input (1024 features) goes through three layers:
    * ten projections `p q = (∑ k, a k * wt k q) + bi q`, each through the cosine;
    * 4096 hidden units `h f = max ((∑ q, cos (p q) * w1 q f) + b1 f) 0`;
    * 1024 outputs `(∑ f, h f * w2 f e) + b2 e`.
  `rowOut` is that row function.  `flatOut` applies it to every row of the flattened
  [16384, 1024] input, reading the weight matrices through their transposes and taking as
  first-layer weights `W1[f, q] * cos θ[q]`; `G` is `flatOut` between the two reshapes
  ([8, 2048, 1024] → [16384, 1024] and back).
  `mul_swap` is the one algebraic law that joins the two programs: the factor `cos θ[q]`
  may sit on the activation or on the weight.  It is associativity and commutativity of the
  product of extended reals, so it needs no finiteness.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.CosFfn

/-- The shapes of the eight arguments, of the flattened input and of the result. -/
abbrev SX : Shape := ⟨3, ![8, 2048, 1024]⟩
abbrev SFlat : Shape := ⟨2, ![16384, 1024]⟩
abbrev SWin : Shape := ⟨2, ![10, 1024]⟩
abbrev SQ : Shape := ⟨1, ![10]⟩
abbrev SW1 : Shape := ⟨2, ![4096, 10]⟩
abbrev SB1 : Shape := ⟨1, ![4096]⟩
abbrev SW2 : Shape := ⟨2, ![1024, 4096]⟩
abbrev SB2 : Shape := ⟨1, ![1024]⟩

/-- Flattening the leading two axes keeps the number of elements, and so does splitting them again. -/
theorem sc_in : SX.ShapeCasts SFlat := by decide
theorem sc_out : SFlat.ShapeCasts SX := by decide

/-- A two-axis index is the pair of its coordinates; a one-axis index is its coordinate. -/
theorem ix2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by
    match d with
    | ⟨0, _⟩ => exact h0
    | ⟨1, _⟩ => exact h1)
theorem ix1_ext {n : Nat} (j : (⟨1, ![n]⟩ : Shape).Idx) (a : Fin n) (h0 : (j 0).val = a.val) : j = ix1 a :=
  funext fun d => Fin.ext (by
    match d with
    | ⟨0, _⟩ => exact h0)

/-- One row through the three layers. -/
def rowOut (a : Fin 1024 → EReal) (wt : Fin 1024 → Fin 10 → EReal) (bi : Fin 10 → EReal)
    (w1 : Fin 10 → Fin 4096 → EReal) (b1 : Fin 4096 → EReal)
    (w2 : Fin 4096 → Fin 1024 → EReal) (b2 : Fin 1024 → EReal) (e : Fin 1024) : EReal :=
  (∑ f : Fin 4096, max ((∑ q : Fin 10, Ideal.cos ((∑ k : Fin 1024, a k * wt k q) + bi q) * w1 q f) + b1 f) 0 * w2 f e) + b2 e

/-- `rowOut` depends on its seven arguments only through their values. -/
theorem rowOut_congr {a a' : Fin 1024 → EReal} {wt wt' : Fin 1024 → Fin 10 → EReal} {bi bi' : Fin 10 → EReal}
    {w1 w1' : Fin 10 → Fin 4096 → EReal} {b1 b1' : Fin 4096 → EReal} {w2 w2' : Fin 4096 → Fin 1024 → EReal} {b2 b2' : Fin 1024 → EReal}
    (ha : ∀ k, a k = a' k) (hwt : ∀ k q, wt k q = wt' k q) (hbi : ∀ q, bi q = bi' q) (hw1 : ∀ q f, w1 q f = w1' q f)
    (hb1 : ∀ f, b1 f = b1' f) (hw2 : ∀ f e, w2 f e = w2' f e) (hb2 : ∀ e, b2 e = b2' e) (e : Fin 1024) :
    rowOut a wt bi w1 b1 w2 b2 e = rowOut a' wt' bi' w1' b1' w2' b2' e := by
  obtain rfl : a = a' := funext ha
  obtain rfl : wt = wt' := funext fun k => funext (hwt k)
  obtain rfl : bi = bi' := funext hbi
  obtain rfl : w1 = w1' := funext fun q => funext (hw1 q)
  obtain rfl : b1 = b1' := funext hb1
  obtain rfl : w2 = w2' := funext fun f => funext (hw2 f)
  obtain rfl : b2 = b2' := funext hb2
  rfl

/-- Every row of the flattened input through `rowOut`, the weights read from the argument arrays:
    `Win` and `W2` through their transposes, the first-layer weight `W1[f, q]` scaled by `cos θ[q]`. -/
def flatOut (xf : SFlat.Idx → EReal) (win : SWin.Idx → EReal) (bin th : SQ.Idx → EReal)
    (w1 : SW1.Idx → EReal) (b1 : SB1.Idx → EReal) (w2 : SW2.Idx → EReal) (b2 : SB2.Idx → EReal) :
    SFlat.Idx → EReal := fun i =>
  rowOut (fun k => xf (ix2 (i 0) k)) (fun k q => win (ix2 q k)) (fun q => bin (ix1 q))
    (fun q f => w1 (ix2 f q) * Ideal.cos (th (ix1 q))) (fun f => b1 (ix1 f))
    (fun f e => w2 (ix2 e f)) (fun e => b2 (ix1 e)) (i 1)

/-- The result array as one function of the eight argument arrays. -/
def G (x : SX.Idx → EReal) (win : SWin.Idx → EReal) (bin th : SQ.Idx → EReal)
    (w1 : SW1.Idx → EReal) (b1 : SB1.Idx → EReal) (w2 : SW2.Idx → EReal) (b2 : SB2.Idx → EReal) :
    SX.Idx → EReal :=
  shapeCast SX (flatOut (shapeCast SFlat x sc_in) win bin th w1 b1 w2 b2) sc_out

/-- The factor `t` moves from the activation `c` onto the weight `w`. -/
theorem mul_swap (c t w : EReal) : c * t * w = c * (w * t) := by
  rw [mul_assoc, mul_comm t w]

end Cert.CosFfn

end
-- ==== Proof.KernelHost.lean ====
/-
  The seven operand arrays of the kernel launch, as the region finds them.

  Before the launch the program flattens the input, transposes `Win` and `W2`, gives the three
  bias vectors a leading unit axis, and scales `W1` by the cosine of the angles before
  transposing it.  Each operand array is first named as those operations of the argument
  arrays (`V_*`), then read at an index (`*_at`): the transposes swap the two coordinates, the
  unit axis is dropped, the conversions to bf16 are the identity on extended reals, and the
  scaled weight at `(q, f)` is `W1[f, q] * cos θ[q]`.
-/
import proofs.«147286_j65481071408436_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.ShloMosaic.ValueIdx Idealize.SL.Sem Idealize.ShloMosaic.StableHlo

namespace Cert.KernelIdeal.Operands

open Cert.KernelIdeal Cert.KernelIdeal.Gen

section Arrays
variable {F : FTy → Type} [FloatOps F]
variable (m : (ℓ : Loc nD τ sig) → Buf (Elt F) ℓ)

/-- Operand 0: the input with its two leading axes flattened. -/
theorem V_flat (c : Dev nD) : (V m c main_call0_v0 : S16384x1024.Idx → Elt F .f32)
    = shapeCast S16384x1024 (m ((c : Thread nD τ).loc main_arg0)) Facts₀.shapeCasts_S8x2048x1024_S16384x1024 := by
  show StableHlo.after hostOps0 (fun b => m (c, b)) (Proc.devRef .tc main_call0_v0) = _
  after_results
  rfl

/-- Operand 1: `Win` transposed. -/
theorem V_winT (c : Dev nD) : (V m c main_call0_v1 : S1024x10.Idx → Elt F .f32)
    = transpose S1024x10 [1, 0] (m ((c : Thread nD τ).loc main_arg1)) Facts₀.transposes_S10x1024_S1024x10_1_0 := by
  show StableHlo.after hostOps0 (fun b => m (c, b)) (Proc.devRef .tc main_call0_v1) = _
  after_results
  rfl

/-- Operand 2: the projection bias as one row. -/
theorem V_bin (c : Dev nD) : (V m c main_call0_v2 : S1x10.Idx → Elt F .f32)
    = shapeCast S1x10 (m ((c : Thread nD τ).loc main_arg2)) Facts₀.shapeCasts_S10_S1x10 := by
  show StableHlo.after hostOps0 (fun b => m (c, b)) (Proc.devRef .tc main_call0_v2) = _
  after_results
  rfl

/-- Operand 3: `W1` scaled column by column by the cosine of the angles, transposed, in bf16. -/
theorem V_w1T (c : Dev nD) : (V m c main_call0_v8 : S10x4096.Idx → Elt F .bf16)
    = truncf .bf16 (transpose S10x4096 [1, 0] (mulf (m ((c : Thread nD τ).loc main_arg4))
        (broadcastInDim S4096x10 ![0, 1] Facts₀.bcast_S1x10_S4096x10_0_1 (broadcastInDim S1x10 ![1] Facts₀.bcast_S10_S1x10_1
          (Host.cos (m ((c : Thread nD τ).loc main_arg3)))))) Facts₀.transposes_S4096x10_S10x4096_1_0) Facts₀.bitsLt_bf16_f32 := by
  show StableHlo.after hostOps0 (fun b => m (c, b)) (Proc.devRef .tc main_call0_v8) = _
  after_results
  rfl

/-- Operand 4: the first layer's bias as one row. -/
theorem V_b1 (c : Dev nD) : (V m c main_call0_v9 : S1x4096.Idx → Elt F .f32)
    = shapeCast S1x4096 (m ((c : Thread nD τ).loc main_arg5)) Facts₀.shapeCasts_S4096_S1x4096 := by
  show StableHlo.after hostOps0 (fun b => m (c, b)) (Proc.devRef .tc main_call0_v9) = _
  after_results
  rfl

/-- Operand 5: `W2` transposed, in bf16. -/
theorem V_w2T (c : Dev nD) : (V m c main_call0_v11 : S4096x1024.Idx → Elt F .bf16)
    = truncf .bf16 (transpose S4096x1024 [1, 0] (m ((c : Thread nD τ).loc main_arg6)) Facts₀.transposes_S1024x4096_S4096x1024_1_0) Facts₀.bitsLt_bf16_f32 := by
  show StableHlo.after hostOps0 (fun b => m (c, b)) (Proc.devRef .tc main_call0_v11) = _
  after_results
  rfl

/-- Operand 6: the second layer's bias as one row. -/
theorem V_b2 (c : Dev nD) : (V m c main_call0_v12 : S1x1024.Idx → Elt F .f32)
    = shapeCast S1x1024 (m ((c : Thread nD τ).loc main_arg7)) Facts₀.shapeCasts_S1024_S1x1024 := by
  show StableHlo.after hostOps0 (fun b => m (c, b)) (Proc.devRef .tc main_call0_v12) = _
  after_results
  rfl

end Arrays

section AtIndex
variable (m : (ℓ : Loc nD τ sig) → Buf (Elt Ideal) ℓ)

/-- The eight argument arrays of core `c` as launched, as arrays of extended reals. -/
abbrev argX (c : Dev nD) : S8x2048x1024.Idx → EReal := m ((c : Thread nD τ).loc main_arg0)
abbrev argWin (c : Dev nD) : S10x1024.Idx → EReal := m ((c : Thread nD τ).loc main_arg1)
abbrev argBin (c : Dev nD) : S10.Idx → EReal := m ((c : Thread nD τ).loc main_arg2)
abbrev argTheta (c : Dev nD) : S10.Idx → EReal := m ((c : Thread nD τ).loc main_arg3)
abbrev argW1 (c : Dev nD) : S4096x10.Idx → EReal := m ((c : Thread nD τ).loc main_arg4)
abbrev argB1 (c : Dev nD) : S4096.Idx → EReal := m ((c : Thread nD τ).loc main_arg5)
abbrev argW2 (c : Dev nD) : S1024x4096.Idx → EReal := m ((c : Thread nD τ).loc main_arg6)
abbrev argB2 (c : Dev nD) : S1024.Idx → EReal := m ((c : Thread nD τ).loc main_arg7)

/-- The seven operand arrays of the launch on core `c`, as arrays of extended reals. -/
abbrev opFlat (c : Dev nD) : S16384x1024.Idx → EReal := V m c main_call0_v0
abbrev opWinT (c : Dev nD) : S1024x10.Idx → EReal := V m c main_call0_v1
abbrev opBin (c : Dev nD) : S1x10.Idx → EReal := V m c main_call0_v2
abbrev opW1T (c : Dev nD) : S10x4096.Idx → EReal := V m c main_call0_v8
abbrev opB1 (c : Dev nD) : S1x4096.Idx → EReal := V m c main_call0_v9
abbrev opW2T (c : Dev nD) : S4096x1024.Idx → EReal := V m c main_call0_v11
abbrev opB2 (c : Dev nD) : S1x1024.Idx → EReal := V m c main_call0_v12

theorem flat_eq (c : Dev nD) : opFlat m c = shapeCast S16384x1024 (argX m c) Facts₀.shapeCasts_S8x2048x1024_S16384x1024 :=
  V_flat m c

theorem winT_at (c : Dev nD) (k : Fin 1024) (q : Fin 10) : opWinT m c (ix2 k q) = argWin m c (ix2 q k) := by
  show (V m c main_call0_v1 : S1024x10.Idx → EReal) (ix2 k q) = _
  rw [V_winT]
  exact transpose_ix2_apply _ _ k q

theorem bin_at (c : Dev nD) (u : Fin 1) (q : Fin 10) : opBin m c (ix2 u q) = argBin m c (ix1 q) := by
  show (V m c main_call0_v2 : S1x10.Idx → EReal) (ix2 u q) = _
  rw [V_bin]
  exact shapeCast_a_1a_apply _ _ u q

theorem w1T_at (c : Dev nD) (q : Fin 10) (f : Fin 4096) :
    opW1T m c (ix2 q f) = argW1 m c (ix2 f q) * Ideal.cos (argTheta m c (ix1 q)) := by
  show (V m c main_call0_v8 : S10x4096.Idx → EReal) (ix2 q f) = _
  rw [V_w1T]
  refine (truncf_apply _ Facts₀.bitsLt_bf16_f32 (ix2 q f)).trans ?_
  refine (transpose_ix2_apply _ _ q f).trans ?_
  refine congrArg (argW1 m c (ix2 f q) * ·) ?_
  refine (broadcastInDim_apply _ Facts₀.bcast_S1x10_S4096x10_0_1 _ (ix2 f q) (ix2 (0 : Fin 1) q) (fun a => match a with
    | ⟨0, _⟩ => by show 0 = if (1 : Nat) = 1 then 0 else f.val; rw [if_pos rfl]
    | ⟨1, _⟩ => by show q.val = if (10 : Nat) = 1 then 0 else q.val; rw [if_neg (by decide)])).trans ?_
  refine (broadcastInDim_apply _ Facts₀.bcast_S10_S1x10_1 _ (ix2 (0 : Fin 1) q) (ix1 q) (fun a => match a with
    | ⟨0, _⟩ => by show q.val = if (10 : Nat) = 1 then 0 else q.val; rw [if_neg (by decide)])).trans ?_
  rfl

theorem b1_at (c : Dev nD) (u : Fin 1) (f : Fin 4096) : opB1 m c (ix2 u f) = argB1 m c (ix1 f) := by
  show (V m c main_call0_v9 : S1x4096.Idx → EReal) (ix2 u f) = _
  rw [V_b1]
  exact shapeCast_a_1a_apply _ _ u f

theorem w2T_at (c : Dev nD) (f : Fin 4096) (e : Fin 1024) : opW2T m c (ix2 f e) = argW2 m c (ix2 e f) := by
  show (V m c main_call0_v11 : S4096x1024.Idx → EReal) (ix2 f e) = _
  rw [V_w2T]
  exact transpose_ix2_apply _ _ f e

theorem b2_at (c : Dev nD) (u : Fin 1) (e : Fin 1024) : opB2 m c (ix2 u e) = argB2 m c (ix1 e) := by
  show (V m c main_call0_v12 : S1x1024.Idx → EReal) (ix2 u e) = _
  rw [V_b2]
  exact shapeCast_a_1a_apply _ _ u e

end AtIndex

end Cert.KernelIdeal.Operands

end
-- ==== Proof.KernelPayload.lean ====
/-
  The kernel body's one stored value, read at an index of the block.

  The body loads a [1024, 1024] block of input rows and the six resident operands, and stores
  `addf (matmul h w2) b2` where `h = max (matmul (cos (matmul x w + b)) w1 + b1) 0`.  At the
  extended reals every change of float format is the identity and a matrix product into a zero
  accumulator is the plain sum over the contracted axis, so entry `(p, e)` of the stored block
  is `rowOut` of row `p` of the input block.  The three products are read first
  (`proj_apply`, `hidden_apply`, `out_apply`), then the three layers (`layer1`, `layer2`,
  `layer3`), then the whole payload (`pay_apply`).
-/
import proofs.«147286_j65481071408436_2_alg».proof.Proof.Gen.KernelIdeal.Skeleton
import proofs.«147286_j65481071408436_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Body

open Cert.KernelIdeal Cert.KernelIdeal.Gen

/-- The input projection: entry `(p, c)` of `x · w` is the sum over the 1024 features. -/
theorem proj_apply (l : FVec Ideal S1024x1024 .f32) (r : FVec Ideal S1024x10 .f32) (p : Fin 1024) (c : Fin 10) :
    matmul dot_S1024x1024_S1024x10_S1024x10_1_0_0_1_n_n (some .fp32) l r (constant (F := Ideal) S1024x10 .f32 0x00000000#32) (ix2 p c)
      = ∑ k : Fin 1024, l (ix2 p k) * r (ix2 k c) := by
  simp only [matmul]
  rw [Ideal.matmul_constant_zero_apply, ← Equiv.sum_comp (contrEquiv1 dot_S1024x1024_S1024x10_S1024x10_1_0_0_1_n_n 1024 rfl rfl).symm]
  refine Finset.sum_congr rfl fun k _ => ?_
  have hk := contrEquiv1_symm_val dot_S1024x1024_S1024x10_S1024x10_1_0_0_1_n_n 1024 rfl rfl k
  have el : dot_S1024x1024_S1024x10_S1024x10_1_0_0_1_n_n.lhsIdx (ix2 p c) ((contrEquiv1 dot_S1024x1024_S1024x10_S1024x10_1_0_0_1_n_n 1024 rfl rfl).symm k) = ix2 p k := funext fun a => Fin.ext (by
    match a with
    | ⟨0, _⟩ =>
      show (dot_S1024x1024_S1024x10_S1024x10_1_0_0_1_n_n.lhsIdx (ix2 p c) _ 0).val = p.val
      unfold DotDims.lhsIdx
      rw [dif_neg (show ¬(0 : Fin S1024x1024.rank) ∈ dot_S1024x1024_S1024x10_S1024x10_1_0_0_1_n_n.lhsBatch by decide), dif_pos (show (0 : Fin S1024x1024.rank) ∈ dot_S1024x1024_S1024x10_S1024x10_1_0_0_1_n_n.lhsNonContracting by decide)]
      rfl
    | ⟨1, _⟩ => exact (dot_S1024x1024_S1024x10_S1024x10_1_0_0_1_n_n.lhsIdx_val_of_single rfl _ _).trans hk)
  have er : dot_S1024x1024_S1024x10_S1024x10_1_0_0_1_n_n.rhsIdx (ix2 p c) ((contrEquiv1 dot_S1024x1024_S1024x10_S1024x10_1_0_0_1_n_n 1024 rfl rfl).symm k) = ix2 k c := funext fun a => Fin.ext (by
    match a with
    | ⟨0, _⟩ => exact (dot_S1024x1024_S1024x10_S1024x10_1_0_0_1_n_n.rhsIdx_val_of_single rfl _ _).trans hk
    | ⟨1, _⟩ =>
      show (dot_S1024x1024_S1024x10_S1024x10_1_0_0_1_n_n.rhsIdx (ix2 p c) _ 1).val = c.val
      unfold DotDims.rhsIdx
      rw [dif_neg (show ¬(1 : Fin S1024x10.rank) ∈ dot_S1024x1024_S1024x10_S1024x10_1_0_0_1_n_n.rhsBatch by decide), dif_pos (show (1 : Fin S1024x10.rank) ∈ dot_S1024x1024_S1024x10_S1024x10_1_0_0_1_n_n.rhsNonContracting by decide)]
      rfl)
  rw [el, er]

/-- The first linear layer: entry `(p, c)` is the sum over the ten cosines. -/
theorem hidden_apply (l : FVec Ideal S1024x10 .bf16) (r : FVec Ideal S10x4096 .bf16) (p : Fin 1024) (c : Fin 4096) :
    matmul dot_S1024x10_S10x4096_S1024x4096_1_0_0_1_n_n none l r (constant (F := Ideal) S1024x4096 .f32 0x00000000#32) (ix2 p c)
      = ∑ k : Fin 10, l (ix2 p k) * r (ix2 k c) := by
  simp only [matmul]
  rw [Ideal.matmul_constant_zero_apply, ← Equiv.sum_comp (contrEquiv1 dot_S1024x10_S10x4096_S1024x4096_1_0_0_1_n_n 10 rfl rfl).symm]
  refine Finset.sum_congr rfl fun k _ => ?_
  have hk := contrEquiv1_symm_val dot_S1024x10_S10x4096_S1024x4096_1_0_0_1_n_n 10 rfl rfl k
  have el : dot_S1024x10_S10x4096_S1024x4096_1_0_0_1_n_n.lhsIdx (ix2 p c) ((contrEquiv1 dot_S1024x10_S10x4096_S1024x4096_1_0_0_1_n_n 10 rfl rfl).symm k) = ix2 p k := funext fun a => Fin.ext (by
    match a with
    | ⟨0, _⟩ =>
      show (dot_S1024x10_S10x4096_S1024x4096_1_0_0_1_n_n.lhsIdx (ix2 p c) _ 0).val = p.val
      unfold DotDims.lhsIdx
      rw [dif_neg (show ¬(0 : Fin S1024x10.rank) ∈ dot_S1024x10_S10x4096_S1024x4096_1_0_0_1_n_n.lhsBatch by decide), dif_pos (show (0 : Fin S1024x10.rank) ∈ dot_S1024x10_S10x4096_S1024x4096_1_0_0_1_n_n.lhsNonContracting by decide)]
      rfl
    | ⟨1, _⟩ => exact (dot_S1024x10_S10x4096_S1024x4096_1_0_0_1_n_n.lhsIdx_val_of_single rfl _ _).trans hk)
  have er : dot_S1024x10_S10x4096_S1024x4096_1_0_0_1_n_n.rhsIdx (ix2 p c) ((contrEquiv1 dot_S1024x10_S10x4096_S1024x4096_1_0_0_1_n_n 10 rfl rfl).symm k) = ix2 k c := funext fun a => Fin.ext (by
    match a with
    | ⟨0, _⟩ => exact (dot_S1024x10_S10x4096_S1024x4096_1_0_0_1_n_n.rhsIdx_val_of_single rfl _ _).trans hk
    | ⟨1, _⟩ =>
      show (dot_S1024x10_S10x4096_S1024x4096_1_0_0_1_n_n.rhsIdx (ix2 p c) _ 1).val = c.val
      unfold DotDims.rhsIdx
      rw [dif_neg (show ¬(1 : Fin S10x4096.rank) ∈ dot_S1024x10_S10x4096_S1024x4096_1_0_0_1_n_n.rhsBatch by decide), dif_pos (show (1 : Fin S10x4096.rank) ∈ dot_S1024x10_S10x4096_S1024x4096_1_0_0_1_n_n.rhsNonContracting by decide)]
      rfl)
  rw [el, er]

/-- The second linear layer: entry `(p, c)` is the sum over the 4096 hidden units. -/
theorem out_apply (l : FVec Ideal S1024x4096 .bf16) (r : FVec Ideal S4096x1024 .bf16) (p : Fin 1024) (c : Fin 1024) :
    matmul dot_S1024x4096_S4096x1024_S1024x1024_1_0_0_1_n_n none l r (constant (F := Ideal) S1024x1024 .f32 0x00000000#32) (ix2 p c)
      = ∑ k : Fin 4096, l (ix2 p k) * r (ix2 k c) := by
  simp only [matmul]
  rw [Ideal.matmul_constant_zero_apply, ← Equiv.sum_comp (contrEquiv1 dot_S1024x4096_S4096x1024_S1024x1024_1_0_0_1_n_n 4096 rfl rfl).symm]
  refine Finset.sum_congr rfl fun k _ => ?_
  have hk := contrEquiv1_symm_val dot_S1024x4096_S4096x1024_S1024x1024_1_0_0_1_n_n 4096 rfl rfl k
  have el : dot_S1024x4096_S4096x1024_S1024x1024_1_0_0_1_n_n.lhsIdx (ix2 p c) ((contrEquiv1 dot_S1024x4096_S4096x1024_S1024x1024_1_0_0_1_n_n 4096 rfl rfl).symm k) = ix2 p k := funext fun a => Fin.ext (by
    match a with
    | ⟨0, _⟩ =>
      show (dot_S1024x4096_S4096x1024_S1024x1024_1_0_0_1_n_n.lhsIdx (ix2 p c) _ 0).val = p.val
      unfold DotDims.lhsIdx
      rw [dif_neg (show ¬(0 : Fin S1024x4096.rank) ∈ dot_S1024x4096_S4096x1024_S1024x1024_1_0_0_1_n_n.lhsBatch by decide), dif_pos (show (0 : Fin S1024x4096.rank) ∈ dot_S1024x4096_S4096x1024_S1024x1024_1_0_0_1_n_n.lhsNonContracting by decide)]
      rfl
    | ⟨1, _⟩ => exact (dot_S1024x4096_S4096x1024_S1024x1024_1_0_0_1_n_n.lhsIdx_val_of_single rfl _ _).trans hk)
  have er : dot_S1024x4096_S4096x1024_S1024x1024_1_0_0_1_n_n.rhsIdx (ix2 p c) ((contrEquiv1 dot_S1024x4096_S4096x1024_S1024x1024_1_0_0_1_n_n 4096 rfl rfl).symm k) = ix2 k c := funext fun a => Fin.ext (by
    match a with
    | ⟨0, _⟩ => exact (dot_S1024x4096_S4096x1024_S1024x1024_1_0_0_1_n_n.rhsIdx_val_of_single rfl _ _).trans hk
    | ⟨1, _⟩ =>
      show (dot_S1024x4096_S4096x1024_S1024x1024_1_0_0_1_n_n.rhsIdx (ix2 p c) _ 1).val = c.val
      unfold DotDims.rhsIdx
      rw [dif_neg (show ¬(1 : Fin S4096x1024.rank) ∈ dot_S1024x4096_S4096x1024_S1024x1024_1_0_0_1_n_n.rhsBatch by decide), dif_pos (show (1 : Fin S4096x1024.rank) ∈ dot_S1024x4096_S4096x1024_S1024x1024_1_0_0_1_n_n.rhsNonContracting by decide)]
      rfl)
  rw [el, er]

/-- The cosine of the biased projection, at `(p, q)`. -/
theorem layer1 (l : FVec Ideal S1024x1024 .f32) (r : FVec Ideal S1024x10 .f32) (b : FVec Ideal S1x10 .f32) (p : Fin 1024) (q : Fin 10) :
    (cos (addf (matmul dot_S1024x1024_S1024x10_S1024x10_1_0_0_1_n_n (some .fp32) (shapeCast S1024x1024 l Facts₀.shapeCasts_S1024x1024_S1024x1024)
        (shapeCast S1024x10 r Facts₀.shapeCasts_S1024x10_S1024x10) (constant (F := Ideal) S1024x10 .f32 0x00000000#32))
      (broadcastTo S1024x10 (shapeCast S1x10 b Facts₀.shapeCasts_S1x10_S1x10) Facts₀.broadcasts_S1x10_S1024x10)) : FVec Ideal S1024x10 .f32) (ix2 p q)
      = Ideal.cos ((∑ k : Fin 1024, l (ix2 p k) * r (ix2 k q)) + b (ix2 (0 : Fin 1) q)) := by
  rw [shapeCast_self, shapeCast_self, shapeCast_self]
  show Ideal.cos (matmul dot_S1024x1024_S1024x10_S1024x10_1_0_0_1_n_n (some .fp32) l r (constant (F := Ideal) S1024x10 .f32 0x00000000#32) (ix2 p q)
    + broadcastTo S1024x10 b Facts₀.broadcasts_S1x10_S1024x10 (ix2 p q)) = _
  rw [proj_apply, broadcastTo_1b_ab_apply]

/-- The hidden unit `f` of row `p`: the rectified biased sum over the ten activations `a`. -/
theorem layer2 (a : FVec Ideal S1024x10 .f32) (w : FVec Ideal S10x4096 .bf16) (b : FVec Ideal S1x4096 .f32) (p : Fin 1024) (f : Fin 4096) :
    (maximumf (addf (matmul dot_S1024x10_S10x4096_S1024x4096_1_0_0_1_n_n none (truncf .bf16 a Facts₀.bitsLt_bf16_f32)
        (shapeCast S10x4096 w Facts₀.shapeCasts_S10x4096_S10x4096) (constant (F := Ideal) S1024x4096 .f32 0x00000000#32))
      (broadcastTo S1024x4096 (shapeCast S1x4096 b Facts₀.shapeCasts_S1x4096_S1x4096) Facts₀.broadcasts_S1x4096_S1024x4096))
      (broadcast S1024x4096 (Scalar.ofBits (F := Ideal) .f32 0x00000000#32)) : FVec Ideal S1024x4096 .f32) (ix2 p f)
      = max ((∑ q : Fin 10, a (ix2 p q) * w (ix2 q f)) + b (ix2 (0 : Fin 1) f)) 0 := by
  rw [shapeCast_self, shapeCast_self]
  show max (matmul dot_S1024x10_S10x4096_S1024x4096_1_0_0_1_n_n none (truncf .bf16 a Facts₀.bitsLt_bf16_f32) w (constant (F := Ideal) S1024x4096 .f32 0x00000000#32) (ix2 p f)
    + broadcastTo S1024x4096 b Facts₀.broadcasts_S1x4096_S1024x4096 (ix2 p f)) (Ideal.ofBits .f32 0x00000000#32) = _
  rw [hidden_apply, broadcastTo_1b_ab_apply, Ideal.ofBits_zero_f32]
  rfl

/-- The output `e` of row `p`: the biased sum over the hidden units `h`. -/
theorem layer3 (h : FVec Ideal S1024x4096 .f32) (w : FVec Ideal S4096x1024 .bf16) (b : FVec Ideal S1x1024 .f32) (p e : Fin 1024) :
    (addf (matmul dot_S1024x4096_S4096x1024_S1024x1024_1_0_0_1_n_n none (truncf .bf16 h Facts₀.bitsLt_bf16_f32)
        (shapeCast S4096x1024 w Facts₀.shapeCasts_S4096x1024_S4096x1024) (constant (F := Ideal) S1024x1024 .f32 0x00000000#32))
      (broadcastTo S1024x1024 (shapeCast S1x1024 b Facts₀.shapeCasts_S1x1024_S1x1024) Facts₀.broadcasts_S1x1024_S1024x1024) : FVec Ideal S1024x1024 .f32) (ix2 p e)
      = (∑ f : Fin 4096, h (ix2 p f) * w (ix2 f e)) + b (ix2 (0 : Fin 1) e) := by
  rw [shapeCast_self, shapeCast_self]
  show matmul dot_S1024x4096_S4096x1024_S1024x1024_1_0_0_1_n_n none (truncf .bf16 h Facts₀.bitsLt_bf16_f32) w (constant (F := Ideal) S1024x1024 .f32 0x00000000#32) (ix2 p e)
    + broadcastTo S1024x1024 b Facts₀.broadcasts_S1x1024_S1024x1024 (ix2 p e) = _
  rw [out_apply, broadcastTo_1b_ab_apply]
  rfl

/-- Entry `(p, e)` of the stored block is row `p` of the input block through the three layers, the
    weights read from the resident operands as the body loads them. -/
theorem pay_apply (x0 : Vec Ideal S1024x1024 .f32) (x1 : Vec Ideal S1024x10 .f32) (x2 : Vec Ideal S1x10 .f32)
    (x3 : Vec Ideal S10x4096 .bf16) (x4 : Vec Ideal S1x4096 .f32) (x5 : Vec Ideal S4096x1024 .bf16) (x6 : Vec Ideal S1x1024 .f32)
    (p e : Fin 1024) :
    k0_pay1 (F := Ideal) x0 x1 x2 x3 x4 x5 x6 (ix2 p e)
      = Cert.CosFfn.rowOut (fun k => x0 (ix2 p k)) (fun k q => x1 (ix2 k q)) (fun q => x2 (ix2 (0 : Fin 1) q))
          (fun q f => x3 (ix2 q f)) (fun f => x4 (ix2 (0 : Fin 1) f)) (fun f e => x5 (ix2 f e)) (fun e => x6 (ix2 (0 : Fin 1) e)) e := by
  unfold k0_pay1 Cert.CosFfn.rowOut
  refine (layer3 _ x5 x6 p e).trans ?_
  refine congrArg (· + x6 (ix2 (0 : Fin 1) e)) (Finset.sum_congr rfl fun f _ => congrArg (· * x5 (ix2 f e)) ?_)
  refine (layer2 _ x3 x4 p f).trans ?_
  refine congrArg (fun s => max (s + x4 (ix2 (0 : Fin 1) f)) 0) (Finset.sum_congr rfl fun q _ => congrArg (· * x3 (ix2 q f)) ?_)
  exact layer1 x0 x1 x2 p q

end Cert.KernelIdeal.Body

end
-- ==== Proof.KernelBlocks.lean ====
/-
  From the blocks the grid points write back to the whole result array, and the kernel's run.

  The grid has 16 points; point `t` reads rows `1024 t … 1024 t + 1023` of the flattened input
  and the six resident operands whole, and writes back rows `1024 t … 1024 t + 1023` of the
  flattened result.  Each input block is read where the output block's rows say (`blk_*`), so
  what point `t` writes back is block `t` of the specification's `flatOut` of the argument
  arrays (`flushed_eq`); the sixteen blocks cover the array (`covered`), so the array ends
  holding `flatOut` (`final_flat`).  The one operation after the launch reshapes that array to
  [8, 2048, 1024], which is the specification's `G` (`tail_eq`, `run`).
-/
import proofs.«147286_j65481071408436_2_alg».proof.Proof.Gen.KernelIdeal.Frame
import proofs.«147286_j65481071408436_2_alg».proof.Proof.KernelHost
import proofs.«147286_j65481071408436_2_alg».proof.Proof.KernelPayload
import proofs.«147286_j65481071408436_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Blocks

open Cert.KernelIdeal Cert.KernelIdeal.Gen Cert.KernelIdeal.Operands Cert.CosFfn

variable (m : (ℓ : Loc nD τ sig) → Buf (Elt Ideal) ℓ) (ρ : Dev nD → PrngReg)

theorem hz : (![0, 0] : Fin 2 → Nat) = fun _ => 0 := funext fun a => by fin_cases a <;> rfl

/-- The input's and the output's block at point `t` is block `(t, 0)`. -/
theorem idx_moving : ∀ t : Fin cfg0.N,
    (win0_0.index t (0 : Fin 2) = t.val ∧ win0_0.index t (1 : Fin 2) = 0)
    ∧ (win0_7.index t (0 : Fin 2) = t.val ∧ win0_7.index t (1 : Fin 2) = 0) :=
  (by decide +kernel : ∀ t : Fin grid0.N, _)

/-- The six resident operands are always at block `(0, 0)`: the whole array. -/
theorem idx_resident : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Row `p` of the input block at point `t` is row `1024 t + p` of the flattened input. -/
theorem blk_x (c : Dev nD) (t : Fin cfg0.N) (p k : Fin 1024) (r : Fin 16384) (hr : r.val = t.val * 1024 + p.val) :
    (iblk m c 0 t : S1024x1024.Idx → EReal) (ix2 p k) = opFlat m c (ix2 r k) := by
  obtain ⟨⟨e0, e1⟩, -⟩ := idx_moving t
  unfold iblk
  rw [View.read_apply]
  show opFlat m c _ = opFlat m c (ix2 r k)
  refine congrArg (opFlat m c) (funext fun d => Fin.ext ?_)
  match d with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The block of the transposed projection weights is the whole array. -/
theorem blk_winT (c : Dev nD) (t : Fin cfg0.N) (k : Fin 1024) (q : Fin 10) :
    (iblk m c 1 t : S1024x10.Idx → EReal) (ix2 k q) = opWinT m c (ix2 k q) := by
  obtain ⟨h1, h2, h3, h4, h5, h6⟩ := idx_resident t
  obtain ⟨e0, e1⟩ := h1
  unfold iblk
  rw [View.read_apply]
  show opWinT m c _ = opWinT m c (ix2 k q)
  refine congrArg (opWinT m c) (funext fun d => Fin.ext ?_)
  match d with
  | ⟨0, _⟩ => show win0_1.index t (0 : Fin 2) * 1024 + 1 * k.val = k.val; rw [e0]; omega
  | ⟨1, _⟩ => show win0_1.index t (1 : Fin 2) * 10 + 1 * q.val = q.val; rw [e1]; omega

/-- The block of the projection bias is the whole row. -/
theorem blk_bin (c : Dev nD) (t : Fin cfg0.N) (u : Fin 1) (q : Fin 10) :
    (iblk m c 2 t : S1x10.Idx → EReal) (ix2 u q) = opBin m c (ix2 u q) := by
  obtain ⟨h1, h2, h3, h4, h5, h6⟩ := idx_resident t
  obtain ⟨e0, e1⟩ := h2
  unfold iblk
  rw [View.read_apply]
  show opBin m c _ = opBin m c (ix2 u q)
  refine congrArg (opBin m c) (funext fun d => Fin.ext ?_)
  match d with
  | ⟨0, _⟩ => show win0_2.index t (0 : Fin 2) * 1 + 1 * u.val = u.val; rw [e0]; omega
  | ⟨1, _⟩ => show win0_2.index t (1 : Fin 2) * 10 + 1 * q.val = q.val; rw [e1]; omega

/-- The block of the scaled first-layer weights is the whole array. -/
theorem blk_w1T (c : Dev nD) (t : Fin cfg0.N) (q : Fin 10) (f : Fin 4096) :
    (iblk m c 3 t : S10x4096.Idx → EReal) (ix2 q f) = opW1T m c (ix2 q f) := by
  obtain ⟨h1, h2, h3, h4, h5, h6⟩ := idx_resident t
  obtain ⟨e0, e1⟩ := h3
  unfold iblk
  rw [View.read_apply]
  show opW1T m c _ = opW1T m c (ix2 q f)
  refine congrArg (opW1T m c) (funext fun d => Fin.ext ?_)
  match d with
  | ⟨0, _⟩ => show win0_3.index t (0 : Fin 2) * 10 + 1 * q.val = q.val; rw [e0]; omega
  | ⟨1, _⟩ => show win0_3.index t (1 : Fin 2) * 4096 + 1 * f.val = f.val; rw [e1]; omega

/-- The block of the first-layer bias is the whole row. -/
theorem blk_b1 (c : Dev nD) (t : Fin cfg0.N) (u : Fin 1) (f : Fin 4096) :
    (iblk m c 4 t : S1x4096.Idx → EReal) (ix2 u f) = opB1 m c (ix2 u f) := by
  obtain ⟨h1, h2, h3, h4, h5, h6⟩ := idx_resident t
  obtain ⟨e0, e1⟩ := h4
  unfold iblk
  rw [View.read_apply]
  show opB1 m c _ = opB1 m c (ix2 u f)
  refine congrArg (opB1 m c) (funext fun d => Fin.ext ?_)
  match d with
  | ⟨0, _⟩ => show win0_4.index t (0 : Fin 2) * 1 + 1 * u.val = u.val; rw [e0]; omega
  | ⟨1, _⟩ => show win0_4.index t (1 : Fin 2) * 4096 + 1 * f.val = f.val; rw [e1]; omega

/-- The block of the transposed second-layer weights is the whole array. -/
theorem blk_w2T (c : Dev nD) (t : Fin cfg0.N) (f : Fin 4096) (e : Fin 1024) :
    (iblk m c 5 t : S4096x1024.Idx → EReal) (ix2 f e) = opW2T m c (ix2 f e) := by
  obtain ⟨h1, h2, h3, h4, h5, h6⟩ := idx_resident t
  obtain ⟨e0, e1⟩ := h5
  unfold iblk
  rw [View.read_apply]
  show opW2T m c _ = opW2T m c (ix2 f e)
  refine congrArg (opW2T m c) (funext fun d => Fin.ext ?_)
  match d with
  | ⟨0, _⟩ => show win0_5.index t (0 : Fin 2) * 4096 + 1 * f.val = f.val; rw [e0]; omega
  | ⟨1, _⟩ => show win0_5.index t (1 : Fin 2) * 1024 + 1 * e.val = e.val; rw [e1]; omega

/-- The block of the second-layer bias is the whole row. -/
theorem blk_b2 (c : Dev nD) (t : Fin cfg0.N) (u : Fin 1) (e : Fin 1024) :
    (iblk m c 6 t : S1x1024.Idx → EReal) (ix2 u e) = opB2 m c (ix2 u e) := by
  obtain ⟨h1, h2, h3, h4, h5, h6⟩ := idx_resident t
  obtain ⟨e0, e1⟩ := h6
  unfold iblk
  rw [View.read_apply]
  show opB2 m c _ = opB2 m c (ix2 u e)
  refine congrArg (opB2 m c) (funext fun d => Fin.ext ?_)
  match d with
  | ⟨0, _⟩ => show win0_6.index t (0 : Fin 2) * 1 + 1 * u.val = u.val; rw [e0]; omega
  | ⟨1, _⟩ => show win0_6.index t (1 : Fin 2) * 1024 + 1 * e.val = e.val; rw [e1]; omega

/-- The flattened result as the specification states it, of core `c`'s argument arrays. -/
abbrev flatG (c : Dev nD) : S16384x1024.Idx → EReal :=
  flatOut (shapeCast SFlat (argX m c) sc_in) (argWin m c) (argBin m c) (argTheta m c) (argW1 m c) (argB1 m c) (argW2 m c) (argB2 m c)

/-- What point `t` writes back is block `t` of the specification's flattened result. -/
theorem flushed_eq (c : Dev nD) (t : Fin cfg0.N) :
    (dats m 0 c).flushed 7 t = ((cfg0.win 7).blk t).view.read (Elt Ideal) (flatG m c) := by
  show (cfg0.win 7).cut (grid0.coords t) ((dats m 0 c).after 7 t) = _
  rw [after0_7]
  unfold out0_7
  rw [View.canon_unit_zero hz]
  simp only [View.ld_unit_zero (S := S1024x1024) hz, View.ld_unit_zero (S := S1024x10) hz, View.ld_unit_zero (S := S1x10) hz,
    View.ld_unit_zero (S := S10x4096) hz, View.ld_unit_zero (S := S1x4096) hz, View.ld_unit_zero (S := S4096x1024) hz,
    View.ld_unit_zero (S := S1x1024) hz]
  funext j
  obtain ⟨p, e, rfl⟩ : ∃ (p : Fin 1024) (e : Fin 1024), j = ix2 p e := ⟨j 0, j 1, eq_ix2 j⟩
  obtain ⟨-, e70, e71⟩ := idx_moving t
  have hN : cfg0.N = 16 := N_0
  have hr : t.val * 1024 + p.val < 16384 := by have := t.isLt; have := p.isLt; omega
  show k0_pay1 (F := Ideal) (iblk m c 0 t) (iblk m c 1 t) (iblk m c 2 t) (iblk m c 3 t) (iblk m c 4 t) (iblk m c 5 t) (iblk m c 6 t) (ix2 p e)
    = flatG m c (((cfg0.win 7).blk t).view.emb (ix2 p e))
  have hemb : ((cfg0.win 7).blk t).view.emb (ix2 p e) = ix2 (⟨t.val * 1024 + p.val, hr⟩ : Fin 16384) e := funext fun d => Fin.ext (by
    match d with
    | ⟨0, _⟩ => show win0_7.index t (0 : Fin 2) * 1024 + 1 * p.val = t.val * 1024 + p.val; rw [e70]; omega
    | ⟨1, _⟩ => show win0_7.index t (1 : Fin 2) * 1024 + 1 * e.val = e.val; rw [e71]; omega)
  rw [hemb]
  refine (Body.pay_apply (iblk m c 0 t) (iblk m c 1 t) (iblk m c 2 t) (iblk m c 3 t) (iblk m c 4 t) (iblk m c 5 t) (iblk m c 6 t) p e).trans ?_
  show rowOut _ _ _ _ _ _ _ e = rowOut _ _ _ _ _ _ _ e
  refine rowOut_congr (fun k => ?_) (fun k q => ?_) (fun q => ?_) (fun q f => ?_) (fun f => ?_) (fun f e' => ?_) (fun e' => ?_) e
  · exact (blk_x m c t p k ⟨t.val * 1024 + p.val, hr⟩ rfl).trans (congrFun (flat_eq m c) (ix2 _ k))
  · exact (blk_winT m c t k q).trans (winT_at m c k q)
  · exact (blk_bin m c t 0 q).trans (bin_at m c 0 q)
  · exact (blk_w1T m c t q f).trans (w1T_at m c q f)
  · exact (blk_b1 m c t 0 f).trans (b1_at m c 0 f)
  · exact (blk_w2T m c t f e').trans (w2T_at m c f e')
  · exact (blk_b2 m c t 0 e').trans (b2_at m c 0 e')

/-- An index of the flattened result is in point `t`'s block iff its row is among the block's 1024 rows. -/
theorem mem_blk (t : Fin cfg0.N) (i : S16384x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_call0_v13).slice (win0_7.rect t)).set ↔ _
  rw [View.set_slice_whole, Rect.mem_set_unit]
  exact Iff.rfl

/-- Row `r` of the flattened result is written back by point `r / 1024`. -/
theorem covered (i : S16384x1024.Idx) : ∃ t : Fin cfg0.N, (cfg0.win 7).flush t = true ∧ i ∈ ((cfg0.win 7).blk t).view.set := by
  have hN : cfg0.N = 16 := N_0
  have hi0 : (i 0).val < 16384 := (i 0).isLt
  have hi1 : (i 1).val < 1024 := (i 1).isLt
  let t : Fin cfg0.N := ⟨(i 0).val / 1024, by rw [hN]; omega⟩
  obtain ⟨-, e70, e71⟩ := idx_moving t
  have ht : t.val = (i 0).val / 1024 := rfl
  refine ⟨t, flush0_7 t, ?_⟩
  rw [mem_blk]
  intro a
  match a with
  | ⟨0, _⟩ => show win0_7.index t (0 : Fin 2) * 1024 ≤ (i 0).val ∧ (i 0).val < win0_7.index t (0 : Fin 2) * 1024 + 1024; rw [e70, ht]; omega
  | ⟨1, _⟩ => show win0_7.index t (1 : Fin 2) * 1024 ≤ (i 1).val ∧ (i 1).val < win0_7.index t (1 : Fin 2) * 1024 + 1024; rw [e71]; omega

/-- The flattened result array after the launch is the specification's. -/
theorem final_flat (c : Dev nD) : (dats m 0 c).arrAt 7 cfg0.N = flatG m c :=
  (dats m 0 c).arrAt_eq_of_cover 7 (flatG m c) (fun t _ => flushed_eq m c t) covered

/-- The program's result: the one operation after the launch reshapes the flattened result. -/
theorem tail_eq (c : Dev nD) :
    Pipeline.afterTail₀ cfgs (dats m) 0 (V0 m) [hostOps1] c main_v0
      = G (argX m c) (argWin m c) (argBin m c) (argTheta m c) (argW1 m c) (argB1 m c) (argW2 m c) (argB2 m c) := by
  unfold Pipeline.afterTail₀
  show StableHlo.after hostOps1 _ (Proc.devRef .tc main_v0) = _
  after_results
  have hw : (Pipeline.withArrays spec0 c (V0 m c) (fun w => (dats m 0 c).arrAt w cfg0.N) (Proc.devRef .tc main_call0_v13) : S16384x1024.Idx → EReal)
      = flatG m c := (Pipeline.withArrays_arr spec0 launch0.win.arr_inj c _ _ 7).trans (final_flat m c)
  refine (congrArg (fun x : S16384x1024.Idx → EReal => shapeCast S8x2048x1024 x Facts₀.shapeCasts_S16384x1024_S8x2048x1024) hw).trans ?_
  rfl

/-- The kernel's run, read: the result array ends at `G` of the argument arrays, which end unchanged. -/
theorem run : θ_run defs (onTc (τ := τ) (main (F := Ideal))) ⟨m, fun _ => 0, ρ⟩ fun r => ∀ c : Dev nD,
      r.2.mem ((c.tc : Thread nD τ).loc main_v0)
        = G (argX m c) (argWin m c) (argBin m c) (argTheta m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Blocks

end
-- ==== Proof.RefValue.lean ====
/-
  The reference's result, read at an index, is the specification.

  The reference multiplies the cosines of the ten projections by `cos θ` and only then applies
  `W1`; the specification has `cos θ` on the weight.  Stage by stage the reference's flattened
  result is read at `(r, e)`: the scaled activation (`act_at`), the rectified hidden unit
  (`hidden_at`), the output (`flat_apply`).  The one law used is `mul_swap`; everything else
  identifies the indices the reference's layout operations compose with plain pairs of
  coordinates.  The final reshape is carried along unopened (`result_eq`).
-/
import proofs.«147286_j65481071408436_2_alg».proof.Proof.Gen.ReferenceIdeal.Read
import proofs.«147286_j65481071408436_2_alg».proof.Proof.Spec

noncomputable section

open Idealize.ShloMosaic Idealize.ShloMosaic.ValueIdx

namespace Cert.ReferenceIdeal.RefValue

open Cert.ReferenceIdeal Cert.ReferenceIdeal.Read Cert.CosFfn

variable (x0 : (⟨S8x2048x1024, .f32⟩ : BufTy).Contents (Elt Ideal)) (x1 : (⟨S10x1024, .f32⟩ : BufTy).Contents (Elt Ideal)) (x2 : (⟨S10, .f32⟩ : BufTy).Contents (Elt Ideal)) (x3 : (⟨S10, .f32⟩ : BufTy).Contents (Elt Ideal))
  (x4 : (⟨S4096x10, .f32⟩ : BufTy).Contents (Elt Ideal)) (x5 : (⟨S4096, .f32⟩ : BufTy).Contents (Elt Ideal)) (x6 : (⟨S1024x4096, .f32⟩ : BufTy).Contents (Elt Ideal)) (x7 : (⟨S1024, .f32⟩ : BufTy).Contents (Elt Ideal))

/-- The scaled activation `q` of row `r`: the cosine of the biased projection times `cos θ[q]`. -/
theorem act_at (r : Fin 16384) (q : Fin 10) :
    val_main_v10 (F := Ideal) x0 x1 x2 x3 (ix2 r q)
      = Ideal.cos ((∑ k : Fin 1024, val_main_v0 (F := Ideal) x0 (ix2 r k) * x1 (ix2 q k)) + x2 (ix1 q)) * Ideal.cos (x3 (ix1 q)) := by
  rw [val_main_v10_apply, val_main_v6_apply, val_main_v5_apply, val_main_v2_apply, val_main_v4_apply, val_main_v3_apply,
    val_main_v9_apply, val_main_v8_apply, val_main_v7_apply]
  have e1 : ∀ k, lidx_main_v2 (ix2 r q) k = ix2 r k := fun k => ix2_ext _ _ _ rfl rfl
  have e2 : ∀ k, idx_main_v1 (ridx_main_v2 (ix2 r q) k) = ix2 q k := fun k => ix2_ext _ _ _ rfl rfl
  have e3 : idx_main_v3 (idx_main_v4 (ix2 r q)) = ix1 q := ix1_ext _ _ rfl
  have e4 : idx_main_v8 (idx_main_v9 (ix2 r q)) = ix1 q := ix1_ext _ _ rfl
  rw [e3, e4]
  show Ideal.cos ((∑ k : Fin 1024, val_main_v0 (F := Ideal) x0 (lidx_main_v2 (ix2 r q) k) * val_main_v1 (F := Ideal) x1 (ridx_main_v2 (ix2 r q) k)) + x2 (ix1 q))
    * Ideal.cos (x3 (ix1 q)) = _
  refine congrArg (fun s => Ideal.cos (s + x2 (ix1 q)) * Ideal.cos (x3 (ix1 q))) (Finset.sum_congr rfl fun k _ => ?_)
  rw [val_main_v1_apply, e1, e2]

/-- The hidden unit `f` of row `r`, with `cos θ` moved onto the weight. -/
theorem hidden_at (r : Fin 16384) (f : Fin 4096) :
    val_main_v16 (F := Ideal) x0 x1 x2 x3 x4 x5 (ix2 r f)
      = max ((∑ q : Fin 10, Ideal.cos ((∑ k : Fin 1024, val_main_v0 (F := Ideal) x0 (ix2 r k) * x1 (ix2 q k)) + x2 (ix1 q))
          * (x4 (ix2 f q) * Ideal.cos (x3 (ix1 q)))) + x5 (ix1 f)) 0 := by
  rw [val_main_v16_apply, val_main_v15_apply, val_main_v12_apply, val_main_v14_apply, val_main_v13_apply,
    val_main_call0_v0_apply, val_main_call0_cst_apply]
  have e1 : ∀ q, lidx_main_v12 (ix2 r f) q = ix2 r q := fun q => ix2_ext _ _ _ rfl rfl
  have e2 : ∀ q, idx_main_v11 (ridx_main_v12 (ix2 r f) q) = ix2 f q := fun q => ix2_ext _ _ _ rfl rfl
  have e3 : idx_main_v13 (idx_main_v14 (ix2 r f)) = ix1 f := ix1_ext _ _ rfl
  rw [e3]
  show max ((∑ q : Fin 10, val_main_v10 (F := Ideal) x0 x1 x2 x3 (lidx_main_v12 (ix2 r f) q) * val_main_v11 (F := Ideal) x4 (ridx_main_v12 (ix2 r f) q)) + x5 (ix1 f))
    (Ideal.ofBits .f32 0x00000000#32) = _
  rw [Ideal.ofBits_zero_f32]
  refine congrArg (fun s => max (s + x5 (ix1 f)) 0) (Finset.sum_congr rfl fun q _ => ?_)
  rw [val_main_v11_apply, e1, e2, act_at, mul_swap]

/-- Entry `(r, e)` of the reference's flattened result is the specification's. -/
theorem flat_apply (r : Fin 16384) (e : Fin 1024) :
    val_main_v21 (F := Ideal) x0 x1 x2 x3 x4 x5 x6 x7 (ix2 r e)
      = flatOut (val_main_v0 (F := Ideal) x0) x1 x2 x3 x4 x5 x6 x7 (ix2 r e) := by
  rw [val_main_v21_apply, val_main_v18_apply, val_main_v20_apply, val_main_v19_apply]
  have e1 : ∀ f, lidx_main_v18 (ix2 r e) f = ix2 r f := fun f => ix2_ext _ _ _ rfl rfl
  have e2 : ∀ f, idx_main_v17 (ridx_main_v18 (ix2 r e) f) = ix2 e f := fun f => ix2_ext _ _ _ rfl rfl
  have e3 : idx_main_v19 (idx_main_v20 (ix2 r e)) = ix1 e := ix1_ext _ _ rfl
  rw [e3]
  unfold flatOut rowOut
  show (∑ f : Fin 4096, val_main_v16 (F := Ideal) x0 x1 x2 x3 x4 x5 (lidx_main_v18 (ix2 r e) f) * val_main_v17 (F := Ideal) x6 (ridx_main_v18 (ix2 r e) f)) + x7 (ix1 e) = _
  refine congrArg (· + x7 (ix1 e)) (Finset.sum_congr rfl fun f _ => ?_)
  rw [val_main_v17_apply, e1, e2, hidden_at]

/-- The reference's flattened result is the specification's, as arrays. -/
theorem flat_eq : val_main_v21 (F := Ideal) x0 x1 x2 x3 x4 x5 x6 x7 = flatOut (shapeCast SFlat x0 sc_in) x1 x2 x3 x4 x5 x6 x7 :=
  funext fun i => by
    obtain ⟨r, e, rfl⟩ : ∃ (r : Fin 16384) (e : Fin 1024), i = ix2 r e := ⟨i 0, i 1, eq_ix2 i⟩
    exact flat_apply x0 x1 x2 x3 x4 x5 x6 x7 r e

/-- The reference's result array is `G` of the arguments. -/
theorem result_eq : val_main_v22 (F := Ideal) x0 x1 x2 x3 x4 x5 x6 x7 = G x0 x1 x2 x3 x4 x5 x6 x7 := by
  unfold val_main_v22 G
  rw [flat_eq]

end Cert.ReferenceIdeal.RefValue

end
-- ==== Proof.lean ====
/-
  The fused feed-forward kernel against its plain reference, over the extended reals.

  Both programs compute, for every row `x` of the flattened [16384, 1024] input,
      out[e] = (∑ f, max ((∑ q, cos ((∑ k, x[k] * Win[q, k]) + b_in[q]) * cos θ[q] * W1[f, q]) + b1[f]) 0 * W2[e, f]) + b2[e].
  The kernel folds `cos θ[q]` into the first-layer weight before the launch and tiles the rows
  in 16 blocks of 1024; the reference scales the activations.  Over the extended reals the
  conversions to bf16 are the identity and a matrix product is the plain sum over the
  contracted axis, so the two differ only in where the factor `cos θ[q]` sits in a product of
  three — associativity and commutativity of the product, which hold at the infinities too, so
  the finiteness of the inputs is never used.

  `Proof/Spec.lean` states that function once (`Cert.CosFfn.G`); `Proof/KernelPayload.lean`,
  `Proof/KernelHost.lean` and `Proof/KernelBlocks.lean` show the kernel's result array ends
  holding it; `Proof/RefValue.lean` shows the reference's does.  The three frames are the
  programs' runs with the result dropped; the idealized kernel is the kernel's own text read over
  the extended reals, with no operation rewritten, so there is nothing to preserve.
-/
import proofs.«147286_j65481071408436_2_alg».proof.Defs
import proofs.«147286_j65481071408436_2_alg».proof.Proof.Gen.Kernel
import proofs.«147286_j65481071408436_2_alg».proof.Proof.Gen.Kernel.Frame
import proofs.«147286_j65481071408436_2_alg».proof.Proof.Gen.KernelIdeal
import proofs.«147286_j65481071408436_2_alg».proof.Proof.Gen.KernelIdeal.Frame
import proofs.«147286_j65481071408436_2_alg».proof.Proof.Gen.ReferenceIdeal
import proofs.«147286_j65481071408436_2_alg».proof.Proof.Gen.ReferenceIdeal.Run
import proofs.«147286_j65481071408436_2_alg».proof.Proof.Gen.ReferenceIdeal.Read
import proofs.«147286_j65481071408436_2_alg».proof.Proof.Gen.Pre_finite_inputs
import proofs.«147286_j65481071408436_2_alg».proof.Proof.Spec
import proofs.«147286_j65481071408436_2_alg».proof.Proof.KernelBlocks
import proofs.«147286_j65481071408436_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the argument arrays, which agree. -/
theorem algebraic : Cert.algebraic_KernelIdeal_ReferenceIdeal := by
  intro m ρ m' ρ' _ hagree
  refine ⟨fun c => Cert.CosFfn.G (Cert.KernelIdeal.Operands.argX m c) (Cert.KernelIdeal.Operands.argWin m c)
    (Cert.KernelIdeal.Operands.argBin m c) (Cert.KernelIdeal.Operands.argTheta m c) (Cert.KernelIdeal.Operands.argW1 m c)
    (Cert.KernelIdeal.Operands.argB1 m c) (Cert.KernelIdeal.Operands.argW2 m c) (Cert.KernelIdeal.Operands.argB2 m c),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq]
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
